-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S512x64 : Shape := ⟨2, ![512, 64]⟩
abbrev S1x512 : Shape := ⟨2, ![1, 512]⟩
abbrev S3x576 : Shape := ⟨2, ![3, 576]⟩
abbrev S3 : Shape := ⟨1, ![3]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S1x512 : S_.BroadcastsInDim S1x512 (![] : Fin 0 → Fin S1x512.rank)
  reducesTo_S1x512_S_d0_1 : S1x512.ReducesTo [0, 1] S_
  bcast_S_S3x576 : S_.BroadcastsInDim S3x576 (![] : Fin 0 → Fin S3x576.rank)
  reducesTo_S3x576_S_d0_1 : S3x576.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3 .f32) (main_v13 : IVec S_ 1) (main_v16 : IVec S3x576 1) : IVec S_ 1 :=
  let main_c_5 : IVec S_ 1 := constantI S_ 1 1#1
  let main_v17 : IVec S_ 1 := (fun x v => Host.reduce IntOp.andi x v reducesTo_S3x576_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  main_v23

def fn {F : FTy → Type} [FloatOps F] (main_arg0 : FVec F S131072x64 .f32) (main_arg1 : FVec F S512x64 .f32) (main_arg2 : FVec F S1x512 .f32) (main_arg3 : FVec F S3x576 .f32) (main_arg4 : FVec F S3 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S512x64 .f32 := Host.absf main_arg1
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S3x576 .f32 := Host.absf main_arg3
  let main_cst_4 : FVec F S_ .f32 := constant S_ .f32 0x7F800000#32
  let main_v15 : FVec F S3x576 .f32 := broadcastInDim S3x576 ![] bcast_S_S3x576 main_cst_4
  let main_v16 : IVec S3x576 1 := cmpf .olt main_v14 main_v15
  fn_part1 (F := F) main_arg4 main_v13 main_v16
-- ==== Kernel.lean ====
abbrev S131072x64 : Shape := ⟨2, ![131072, 64]⟩
abbrev S512x64 : Shape := ⟨2, ![512, 64]⟩
abbrev S1x512 : Shape := ⟨2, ![1, 512]⟩
abbrev S3x576 : Shape := ⟨2, ![3, 576]⟩
abbrev S3 : Shape := ⟨1, ![3]⟩
abbrev S3x64 : Shape := ⟨2, ![3, 64]⟩
abbrev S3x512 : Shape := ⟨2, ![3, 512]⟩
abbrev S131072x3 : Shape := ⟨2, ![131072, 3]⟩
abbrev S2048x64 : Shape := ⟨2, ![2048, 64]⟩
abbrev S2048x3 : Shape := ⟨2, ![2048, 3]⟩
abbrev S2048 : Shape := ⟨1, ![2048]⟩
abbrev S2048x1 : Shape := ⟨2, ![2048, 1]⟩
abbrev S512 : Shape := ⟨1, ![512]⟩
abbrev S64x512 : Shape := ⟨2, ![64, 512]⟩
abbrev S2048x512 : Shape := ⟨2, ![2048, 512]⟩
abbrev S64x3 : Shape := ⟨2, ![64, 3]⟩
abbrev S512x3 : Shape := ⟨2, ![512, 3]⟩
abbrev S1x3 : Shape := ⟨2, ![1, 3]⟩

abbrev nBuf : Space → Nat
  | .hbm => 8
  | .vmem => 9
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S1x512, .f32⟩
  | .hbm, ⟨3, _⟩ => ⟨S3x576, .f32⟩
  | .hbm, ⟨4, _⟩ => ⟨S3, .f32⟩
  | .hbm, ⟨5, _⟩ => ⟨S3x64, .f32⟩
  | .hbm, ⟨6, _⟩ => ⟨S3x512, .f32⟩
  | .hbm, ⟨7, _⟩ => ⟨S131072x3, .f32⟩
  | .local _ .vmem, ⟨0, _⟩ => ⟨S2048x64, .f32⟩
  | .local _ .vmem, ⟨1, _⟩ => ⟨S2048x64, .f32⟩
  | .local _ .vmem, ⟨2, _⟩ => ⟨S512x64, .f32⟩
  | .local _ .vmem, ⟨3, _⟩ => ⟨S1x512, .f32⟩
  | .local _ .vmem, ⟨4, _⟩ => ⟨S3x64, .f32⟩
  | .local _ .vmem, ⟨5, _⟩ => ⟨S3x512, .f32⟩
  | .local _ .vmem, ⟨6, _⟩ => ⟨S3, .f32⟩
  | .local _ .vmem, ⟨7, _⟩ => ⟨S2048x3, .f32⟩
  | .local _ .vmem, ⟨8, _⟩ => ⟨S2048x3, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S3x576_S3x64_0_0 : S3x576.Slices ![0, 0] S3x64
  slices_S3x576_S3x512_0_64 : S3x576.Slices ![0, 64] S3x512
  inb_S2048x64_S2048x64_0_0 : ∀ a, (![0, 0] : Fin 2 → Nat) a + S2048x64.size a ≤ S2048x64.size a
  h_S2048x64 : 0 < S2048x64.numel
  inb_S512x64_S512x64_0_0 : ∀ a, (![0, 0] : Fin 2 → Nat) a + S512x64.size a ≤ S512x64.size a
  h_S512x64 : 0 < S512x64.numel
  inb_S1x512_S1x512_0_0 : ∀ a, (![0, 0] : Fin 2 → Nat) a + S1x512.size a ≤ S1x512.size a
  h_S1x512 : 0 < S1x512.numel
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S3x512_S3x512_0_0 : ∀ a, (![0, 0] : Fin 2 → Nat) a + S3x512.size a ≤ S3x512.size a
  h_S3x512 : 0 < S3x512.numel
  shapeCasts_S3x512_S3x512 : S3x512.ShapeCasts S3x512
  inb_S3_S3_0 : ∀ a, (![0] : Fin 1 → Nat) a + S3.size a ≤ S3.size a
  h_S3 : 0 < S3.numel
  reduces_S2048x64_S2048 : S2048x64.Reduces [1] S2048
  shapeCasts_S2048_S2048x1 : S2048.ShapeCasts S2048x1
  reduces_S512x64_S512 : S512x64.Reduces [1] S512
  bitsLt_bf16_f32 : FTy.bits .bf16 < FTy.bits .f32
  transposes_S512x64_p1_0_S64x512 : S512x64.Transposes [1, 0] S64x512
  shapeCasts_S512_S1x512 : S512.ShapeCasts S1x512
  broadcasts_S2048x1_S2048x512 : S2048x1.Broadcasts S2048x512
  broadcasts_S1x512_S2048x512 : S1x512.Broadcasts S2048x512
  transposes_S3x64_p1_0_S64x3 : S3x64.Transposes [1, 0] S64x3
  transposes_S3x512_p1_0_S512x3 : S3x512.Transposes [1, 0] S512x3
  shapeCasts_S3_S1x3 : S3.ShapeCasts S1x3
  broadcasts_S1x3_S2048x3 : S1x3.Broadcasts S2048x3
  inb_S2048x3_S2048x3_0_0 : ∀ a, (![0, 0] : Fin 2 → Nat) a + S2048x3.size a ≤ S2048x3.size a
  h_S2048x3 : 0 < S2048x3.numel
  dot_S2048x64_S64x512_S2048x512_1_0_0_1_n_n_wf : DotDims.WF S2048x64 S64x512 S2048x512 [1] [0] [0] [1] [] []
  dot_S2048x64_S64x3_S2048x3_1_0_0_1_n_n_wf : DotDims.WF S2048x64 S64x3 S2048x3 [1] [0] [0] [1] [] []
  dot_S2048x512_S512x3_S2048x3_1_0_0_1_n_n_wf : DotDims.WF S2048x512 S512x3 S2048x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S131072x64.size a
  hwx0_0 : ∀ i : grid0.Coords, EltTy.bits .f32 = 32 ∨ (Rect.block (s := S131072x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x64.size a ≤ S3x64.size a
  hwx0_3 : ∀ i : grid0.Coords, EltTy.bits .f32 = 32 ∨ (Rect.block (s := S3x64) S3x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x512.size a ≤ S3x512.size a
  hwx0_4 : ∀ i : grid0.Coords, EltTy.bits .f32 = 32 ∨ (Rect.block (s := S3x512) S3x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3.size a ≤ S3.size a
  hwx0_5 : ∀ i : grid0.Coords, EltTy.bits .f32 = 32 ∨ (Rect.block (s := S3) S3.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x3.size a ≤ S131072x3.size a
  hwx0_6 : ∀ i : grid0.Coords, EltTy.bits .f32 = 32 ∨ (Rect.block (s := S131072x3) S2048x3.size (cc0_transform_6 i) (hinb0_6 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x64_S64x3_S2048x3_1_0_0_1_n_n : DotDims S2048x64 S64x3 S2048x3 where
  lhsContracting := [1]
  rhsContracting := [0]
  lhsNonContracting := [0]
  rhsNonContracting := [1]
  lhsBatch := []
  rhsBatch := []
  wf := dot_S2048x64_S64x3_S2048x3_1_0_0_1_n_n_wf
def dot_S2048x512_S512x3_S2048x3_1_0_0_1_n_n : DotDims S2048x512 S512x3 S2048x3 where
  lhsContracting := [1]
  rhsContracting := [0]
  lhsNonContracting := [0]
  rhsNonContracting := [1]
  lhsBatch := []
  rhsBatch := []
  wf := dot_S2048x512_S512x3_S2048x3_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S3x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S3x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S3.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2048x3.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S131072x64 : Shape := ⟨2, ![131072, 64]⟩
abbrev S512x64 : Shape := ⟨2, ![512, 64]⟩
abbrev S1x512 : Shape := ⟨2, ![1, 512]⟩
abbrev S3x576 : Shape := ⟨2, ![3, 576]⟩
abbrev S3 : Shape := ⟨1, ![3]⟩
abbrev S_ : Shape := ⟨0, ![]⟩
abbrev S131072 : Shape := ⟨1, ![131072]⟩
abbrev S131072x1 : Shape := ⟨2, ![131072, 1]⟩
abbrev S512 : Shape := ⟨1, ![512]⟩
abbrev S131072x512 : Shape := ⟨2, ![131072, 512]⟩
abbrev S131072x576 : Shape := ⟨2, ![131072, 576]⟩
abbrev S576x3 : Shape := ⟨2, ![576, 3]⟩
abbrev S131072x3 : Shape := ⟨2, ![131072, 3]⟩
abbrev S1x3 : Shape := ⟨2, ![1, 3]⟩

abbrev nBuf : Space → Nat
  | .hbm => 31
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S512x64, .f32⟩
  | .hbm, ⟨2, _⟩ => ⟨S1x512, .f32⟩
  | .hbm, ⟨3, _⟩ => ⟨S3x576, .f32⟩
  | .hbm, ⟨4, _⟩ => ⟨S3, .f32⟩
  | .hbm, ⟨5, _⟩ => ⟨S131072x64, .f32⟩
  | .hbm, ⟨6, _⟩ => ⟨S_, .f32⟩
  | .hbm, ⟨7, _⟩ => ⟨S131072, .f32⟩
  | .hbm, ⟨8, _⟩ => ⟨S131072x1, .f32⟩
  | .hbm, ⟨9, _⟩ => ⟨S512x64, .f32⟩
  | .hbm, ⟨10, _⟩ => ⟨S_, .f32⟩
  | .hbm, ⟨11, _⟩ => ⟨S512, .f32⟩
  | .hbm, ⟨12, _⟩ => ⟨S131072x512, .f32⟩
  | .hbm, ⟨13, _⟩ => ⟨S1x512, .f32⟩
  | .hbm, ⟨14, _⟩ => ⟨S131072x512, .f32⟩
  | .hbm, ⟨15, _⟩ => ⟨S131072x512, .f32⟩
  | .hbm, ⟨16, _⟩ => ⟨S131072x512, .f32⟩
  | .hbm, ⟨17, _⟩ => ⟨S_, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S1x512, .f32⟩
  | .hbm, ⟨22, _⟩ => ⟨S131072x512, .f32⟩
  | .hbm, ⟨23, _⟩ => ⟨S131072x512, .f32⟩
  | .hbm, ⟨24, _⟩ => ⟨S131072x512, .f32⟩
  | .hbm, ⟨25, _⟩ => ⟨S131072x576, .f32⟩
  | .hbm, ⟨26, _⟩ => ⟨S576x3, .f32⟩
  | .hbm, ⟨27, _⟩ => ⟨S131072x3, .f32⟩
  | .hbm, ⟨28, _⟩ => ⟨S1x3, .f32⟩
  | .hbm, ⟨29, _⟩ => ⟨S131072x3, .f32⟩
  | .hbm, ⟨30, _⟩ => ⟨S131072x3, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S512x64_S512_d1 : S512x64.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  bcast_S_S131072x512 : S_.BroadcastsInDim S131072x512 (![] : Fin 0 → Fin S131072x512.rank)
  concatenates_S131072x64_S131072x512_S131072x576_d1 : Shape.Concatenates [S131072x64, S131072x512] S131072x576 1
  transposes_S3x576_S576x3_1_0 : S3x576.Transposes [1, 0] S576x3
  bcast_S3_S1x3_1 : S3.BroadcastsInDim S1x3 (![1] : Fin 1 → Fin S1x3.rank)
  bcast_S1x3_S131072x3_0_1 : S1x3.BroadcastsInDim S131072x3 (![0, 1] : Fin 2 → Fin S131072x3.rank)
  dot_S131072x64_S512x64_S131072x512_1_1_0_0_n_n_wf : DotDims.WF S131072x64 S512x64 S131072x512 [1] [1] [0] [0] [] []
  dot_S131072x576_S576x3_S131072x3_1_0_0_1_n_n_wf : DotDims.WF S131072x576 S576x3 S131072x3 [1] [0] [0] [1] [] []

variable [Facts₀]

def dot_S131072x64_S512x64_S131072x512_1_1_0_0_n_n : DotDims S131072x64 S512x64 S131072x512 where
  lhsContracting := [1]
  rhsContracting := [1]
  lhsNonContracting := [0]
  rhsNonContracting := [0]
  lhsBatch := []
  rhsBatch := []
  wf := dot_S131072x64_S512x64_S131072x512_1_1_0_0_n_n_wf
def dot_S131072x576_S576x3_S131072x3_1_0_0_1_n_n : DotDims S131072x576 S576x3 S131072x3 where
  lhsContracting := [1]
  rhsContracting := [0]
  lhsNonContracting := [0]
  rhsNonContracting := [1]
  lhsBatch := []
  rhsBatch := []
  wf := dot_S131072x576_S576x3_S131072x3_1_0_0_1_n_n_wf

class Facts : Prop extends Facts₀ where

variable [Facts]
-- ==== Proof.RowSpec.lean ====
/-
  The radial-basis layer, one output entry at a time, on the extended reals.

  Every output row depends on ONE row of the batch and on the small resident arrays. For a batch row
  `x : Fin 64 → EReal`, centres `cen c : Fin 64 → EReal` (`c < 512`), the NEGATED widths `nb c`, and one output unit's
  weights — `w1` against the 64 input coordinates, `w2` against the 512 radial features — and bias `bo`:

      sqNorm x     = Σ_d x_d · x_d
      sqDist x y   = (sqNorm x + sqNorm y) − 2 · Σ_d x_d · y_d            (‖x‖² + ‖y‖² − 2⟨x, y⟩, in this grouping)
      radial x c   = exp (nb c · sqDist x (cen c))
      rowOut       = (Σ_d x_d · w1_d + Σ_c radial x c · w2_c) + bo.

  `entry X C β W b n o` is that value for batch row `n` and output unit `o` of the whole argument arrays: the weight row
  `W[o, ·]` of length 576 is cut at 64, its first 64 entries meeting the inputs and its last 512 the radial features; and
  `result` is the whole [131072, 3] array of them. The one algebraic law of this certificate is `sum_split`: a sum over
  the 576 joined coordinates is the sum over the first 64 plus the sum over the last 512 — a regrouping of a finite sum in
  a commutative monoid, valid on the extended reals with no finiteness assumption.
-/
import Idealize.ShloMosaic.PureOps.Ideal
import Idealize.ShloMosaic.Lib.ValueIdx

noncomputable section

open scoped BigOperators

namespace Cert.Rbf

open Idealize.ShloMosaic Idealize.ShloMosaic.ValueIdx

/-- The f32 word of `2.0` read at the ideal values. Both programs carry the same word, so it is never evaluated. -/
def two : EReal := Ideal.ofBits .f32 0x40000000#32

/-- The squared norm of a row, as the sum of its squares. -/
def sqNorm (x : Fin 64 → EReal) : EReal := ∑ d : Fin 64, x d * x d

/-- The squared distance of two rows in the expanded form both programs compute: ‖x‖² + ‖y‖² − 2⟨x, y⟩. -/
def sqDist (x y : Fin 64 → EReal) : EReal := (sqNorm x + sqNorm y) - two * ∑ d : Fin 64, x d * y d

/-- The radial feature of row `x` at centre `c`: `exp` of the negated width times the squared distance. -/
def radial (x : Fin 64 → EReal) (cen : Fin 512 → Fin 64 → EReal) (nb : Fin 512 → EReal) (c : Fin 512) : EReal :=
  Ideal.exp (nb c * sqDist x (cen c))

/-- One output entry: the row against the input weights, plus its radial features against the feature weights, plus
    the bias. -/
def rowOut (x : Fin 64 → EReal) (cen : Fin 512 → Fin 64 → EReal) (nb : Fin 512 → EReal) (w1 : Fin 64 → EReal)
    (w2 : Fin 512 → EReal) (bo : EReal) : EReal :=
  (∑ d : Fin 64, x d * w1 d + ∑ c : Fin 512, radial x cen nb c * w2 c) + bo

/-- Coordinate `d` of the first 64 of the 576 joined coordinates. -/
def lo (d : Fin 64) : Fin 576 := ⟨d.val, by omega⟩
/-- Coordinate `c` of the last 512 of the 576 joined coordinates. -/
def hi (c : Fin 512) : Fin 576 := ⟨64 + c.val, by omega⟩

theorem lo_val (d : Fin 64) : (lo d).val = d.val := rfl
theorem hi_val (c : Fin 512) : (hi c).val = 64 + c.val := rfl

/-- A sum over the 576 joined coordinates is the sum over the first 64 plus the sum over the last 512. -/
theorem sum_split {M : Type*} [AddCommMonoid M] (f : Fin 576 → M) :
    ∑ k : Fin 576, f k = ∑ d : Fin 64, f (lo d) + ∑ c : Fin 512, f (hi c) :=
  Fin.sum_univ_add (a := 64) (b := 512) f

/-- The result at batch row `n` and output unit `o`, from the whole argument arrays. -/
def entry (X : (⟨2, ![131072, 64]⟩ : Shape).Idx → EReal) (C : (⟨2, ![512, 64]⟩ : Shape).Idx → EReal)
    (β : (⟨2, ![1, 512]⟩ : Shape).Idx → EReal) (W : (⟨2, ![3, 576]⟩ : Shape).Idx → EReal)
    (b : (⟨1, ![3]⟩ : Shape).Idx → EReal) (n : Fin 131072) (o : Fin 3) : EReal :=
  rowOut (fun d => X (ix2 n d)) (fun c d => C (ix2 c d)) (fun c => -(β (ix2 (0 : Fin 1) c)))
    (fun d => W (ix2 o (lo d))) (fun c => W (ix2 o (hi c))) (b (ix1 o))

/-- The whole result array. -/
def result (X : (⟨2, ![131072, 64]⟩ : Shape).Idx → EReal) (C : (⟨2, ![512, 64]⟩ : Shape).Idx → EReal)
    (β : (⟨2, ![1, 512]⟩ : Shape).Idx → EReal) (W : (⟨2, ![3, 576]⟩ : Shape).Idx → EReal)
    (b : (⟨1, ![3]⟩ : Shape).Idx → EReal) : (⟨2, ![131072, 3]⟩ : Shape).Idx → EReal :=
  fun i => entry X C β W b (i 0) (i 1)

theorem result_ix2 (X : (⟨2, ![131072, 64]⟩ : Shape).Idx → EReal) (C : (⟨2, ![512, 64]⟩ : Shape).Idx → EReal)
    (β : (⟨2, ![1, 512]⟩ : Shape).Idx → EReal) (W : (⟨2, ![3, 576]⟩ : Shape).Idx → EReal)
    (b : (⟨1, ![3]⟩ : Shape).Idx → EReal) (n : Fin 131072) (o : Fin 3) :
    result X C β W b (ix2 n o) = entry X C β W b n o := rfl

end Cert.Rbf

end
-- ==== Proof.RefRow.lean ====
/-
  The reference computes `Cert.Rbf.result`.

  Read one operation at a time at the index (n, o) of the [131072, 3] result (the generated read-at-an-index lemmas), the
  reference is: the row sums of squares of the batch and of the centres (each the zero word plus a sum over the 64
  coordinates), broadcast and added; twice the product row·centre subtracted; multiplied by the negated width and
  exponentiated — the radial feature of row n at centre c; then the batch row and its 512 radial features JOINED into one
  row of 576 entries and contracted against row o of the weights; plus the bias. The joined row at a coordinate below 64
  is the batch row's entry, at 64 + c the radial feature at centre c, so by `sum_split` the contraction over 576 is the
  sum over the inputs plus the sum over the radial features: `Cert.Rbf.entry`.
-/
import proofs.«128353_j5901285064816_1_alg».proof.Proof.Gen.ReferenceIdeal.Read
import proofs.«128353_j5901285064816_1_alg».proof.Proof.RowSpec
import Idealize.ShloMosaic.Lib.Pipeline.Value
import Idealize.ShloMosaic.Lib.ValueIdx
import Idealize.ShloMosaic.PureOps.Ideal.Laws

noncomputable section

open scoped BigOperators

namespace Cert.Rbf.Ref

open Cert.ReferenceIdeal Cert.ReferenceIdeal.Gen Cert.ReferenceIdeal.Read Idealize.ShloMosaic Idealize.ShloMosaic.ValueIdx Cert.Rbf

variable (X : FVec Ideal S131072x64 .f32) (C : FVec Ideal S512x64 .f32) (β : FVec Ideal S1x512 .f32)
  (W : FVec Ideal S3x576 .f32) (b : FVec Ideal S3 .f32)

/-! ## The operations' index maps, at coordinates -/

theorem idx_v1 (n : Fin 131072) (k : Fin 64) : idx_main_v1 (ix1 n) k = ix2 n k :=
  funext fun a => Fin.ext (by match a with | ⟨0, _⟩ => rfl | ⟨1, _⟩ => rfl)
theorem idx_v4 (c : Fin 512) (k : Fin 64) : idx_main_v4 (ix1 c) k = ix2 c k :=
  funext fun a => Fin.ext (by match a with | ⟨0, _⟩ => rfl | ⟨1, _⟩ => rfl)
theorem idx_v2_v7 (n : Fin 131072) (c : Fin 512) : idx_main_v2 (idx_main_v7 (ix2 n c)) = ix1 n :=
  funext fun a => Fin.ext (by match a with | ⟨0, _⟩ => rfl)
theorem idx_v6_v8 (n : Fin 131072) (c : Fin 512) : idx_main_v6 (idx_main_v8 (ix2 n c)) = ix1 c :=
  funext fun a => Fin.ext (by match a with | ⟨0, _⟩ => rfl)
theorem lidx_v5 (n : Fin 131072) (c : Fin 512) (k : Fin 64) : lidx_main_v5 (ix2 n c) k = ix2 n k :=
  funext fun a => Fin.ext (by match a with | ⟨0, _⟩ => rfl | ⟨1, _⟩ => rfl)
theorem ridx_v5 (n : Fin 131072) (c : Fin 512) (k : Fin 64) : ridx_main_v5 (ix2 n c) k = ix2 c k :=
  funext fun a => Fin.ext (by match a with | ⟨0, _⟩ => rfl | ⟨1, _⟩ => rfl)
theorem idx_v14 (n : Fin 131072) (c : Fin 512) : idx_main_v14 (ix2 n c) = ix2 (0 : Fin 1) c :=
  funext fun a => Fin.ext (by match a with | ⟨0, _⟩ => rfl | ⟨1, _⟩ => rfl)
theorem idx_v18_v19 (n : Fin 131072) (o : Fin 3) (k : Fin 576) : idx_main_v18 (ridx_main_v19 (ix2 n o) k) = ix2 o k :=
  funext fun a => Fin.ext (by match a with | ⟨0, _⟩ => rfl | ⟨1, _⟩ => rfl)
theorem idx_v20_v21 (n : Fin 131072) (o : Fin 3) : idx_main_v20 (idx_main_v21 (ix2 n o)) = ix1 o :=
  funext fun a => Fin.ext (by match a with | ⟨0, _⟩ => rfl)

/-! ## The stages at coordinates -/

/-- The batch's row sum of squares at row `n`: the zero word plus the sum over the 64 coordinates. -/
theorem sqnorm_x (n : Fin 131072) : val_main_v1 (F := Ideal) X (ix1 n) = sqNorm (fun d => X (ix2 n d)) := by
  rw [val_main_v1_apply]
  simp only [val_main_cst_apply, val_main_v0_apply, idx_v1, Ideal.ofBits_def, Ideal.ofBits_zero_f32, zero_add, Ideal.mulf_def]
  rfl

/-- The centres' row sum of squares at centre `c`. -/
theorem sqnorm_c (c : Fin 512) : val_main_v4 (F := Ideal) C (ix1 c) = sqNorm (fun d => C (ix2 c d)) := by
  rw [val_main_v4_apply]
  simp only [val_main_cst_0_apply, val_main_v3_apply, idx_v4, Ideal.ofBits_def, Ideal.ofBits_zero_f32, zero_add, Ideal.mulf_def]
  rfl

/-- The exponentiated stage at (n, c) is the radial feature of row `n` at centre `c`. -/
theorem radial_ref (n : Fin 131072) (c : Fin 512) :
    val_main_v16 (F := Ideal) X C β (ix2 n c)
      = radial (fun d => X (ix2 n d)) (fun c d => C (ix2 c d)) (fun c => -(β (ix2 (0 : Fin 1) c))) c := by
  rw [val_main_v16_apply, val_main_v15_apply, val_main_v14_apply, val_main_v13_apply, val_main_v12_apply,
    val_main_v9_apply, val_main_v7_apply, val_main_v2_apply, val_main_v8_apply, val_main_v6_apply, val_main_v11_apply,
    val_main_v10_apply, val_main_cst_1_apply, val_main_v5_apply, idx_v2_v7, idx_v6_v8, idx_v14, sqnorm_x, sqnorm_c]
  simp only [lidx_v5, ridx_v5, Ideal.hostUnary_exp_def, Ideal.hostNegf_def, Ideal.negf_def, Ideal.mulf_def,
    Ideal.subf_def, Ideal.addf_def, Ideal.ofBits_def]
  rfl

/-- The joined row at one of its first 64 coordinates is the batch row's entry. -/
theorem joined_lo (n : Fin 131072) (o : Fin 3) (d : Fin 64) :
    val_main_v17 (F := Ideal) X C β (lidx_main_v19 (ix2 n o) (lo d)) = X (ix2 n d) := by
  unfold val_main_v17
  exact concatenate_pair_apply_left (t := S131072x576) (s₁ := S131072x64) (s₂ := S131072x512) 1 X
    (val_main_v16 (F := Ideal) X C β) concatenates_S131072x64_S131072x512_S131072x576_d1 _ rfl (ix2 n d)
    (fun a => by match a with | ⟨0, _⟩ => rfl | ⟨1, _⟩ => rfl)

/-- The joined row at coordinate 64 + c is the radial feature at centre `c`. -/
theorem joined_hi (n : Fin 131072) (o : Fin 3) (c : Fin 512) :
    val_main_v17 (F := Ideal) X C β (lidx_main_v19 (ix2 n o) (hi c)) = val_main_v16 (F := Ideal) X C β (ix2 n c) := by
  unfold val_main_v17
  exact concatenate_pair_apply_right (t := S131072x576) (s₁ := S131072x64) (s₂ := S131072x512) 1 X
    (val_main_v16 (F := Ideal) X C β) concatenates_S131072x64_S131072x512_S131072x576_d1 _ rfl rfl (ix2 n c)
    (fun a ha => by match a with | ⟨0, _⟩ => rfl | ⟨1, _⟩ => exact absurd rfl ha)
    (by show c.val + 64 = 64 + c.val; omega)

/-- The transposed weights at (k, o) are the weights at (o, k). -/
theorem weights_at (n : Fin 131072) (o : Fin 3) (k : Fin 576) :
    val_main_v18 (F := Ideal) W (ridx_main_v19 (ix2 n o) k) = W (ix2 o k) := by
  rw [val_main_v18_apply, idx_v18_v19]

/-- The broadcast bias at (n, o) is the bias at `o`. -/
theorem bias_at (n : Fin 131072) (o : Fin 3) : val_main_v21 (F := Ideal) b (ix2 n o) = b (ix1 o) := by
  rw [val_main_v21_apply, val_main_v20_apply, idx_v20_v21]

/-! ## The reference's result -/

/-- The last stage at (n, o) is `entry`: the contraction over the 576 joined coordinates split at 64. -/
theorem ref_entry (n : Fin 131072) (o : Fin 3) :
    val_main_v22 (F := Ideal) X C β W b (ix2 n o) = entry X C β W b n o := by
  rw [val_main_v22_apply, val_main_v19_apply, bias_at, sum_split]
  simp only [joined_lo, joined_hi, weights_at, radial_ref, Ideal.addf_def]
  rfl

/-- The reference's result array is `result` of the argument arrays. -/
theorem ref_result : val_main_v22 (F := Ideal) X C β W b = result X C β W b := by
  funext i
  obtain ⟨n, o, rfl⟩ : ∃ (n : Fin 131072) (o : Fin 3), i = ix2 n o := ⟨i 0, i 1, eq_ix2 i⟩
  exact ref_entry X C β W b n o

end Cert.Rbf.Ref

end
-- ==== Proof.LibMinFold.lean ====
/- General facts about minima over a finite family of extended reals taken from the top, and about the two
   minimum-reductions that compute them: a vector minimum-reduction and a host minimum-reduction along one axis, each
   started from the pattern of +infinity; with two layout steps for columns. Nothing here depends on a particular
   program. -/
import Idealize.ShloMosaic.PureOps.Ideal
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.Lib.MinFold

/-- The f32 pattern of +infinity denotes the top of the extended reals. -/
theorem ofBits_inf : Ideal.ofBits .f32 0x7F800000#32 = ⊤ := by
  simp [Ideal.ofBits, Ideal.ieee]

/-- An extended real lies below the minimum of a finite family taken from the top iff it lies below every member:
    the minimum by its universal property, with no order of folding in it. -/
theorem le_fold_min_univ {ι : Type} [Fintype ι] (f : ι → EReal) (x : EReal) :
    x ≤ (Finset.univ : Finset ι).fold min ⊤ f ↔ ∀ k, x ≤ f k := by
  rw [Finset.le_fold_min]
  simp

/-- Two extended reals with the same lower bounds are equal (so two minima described by `le_fold_min_univ` over the
    same members, however blocked, are equal). -/
theorem eq_of_le_iff {u v : EReal} (h : ∀ x, x ≤ u ↔ x ≤ v) : u = v :=
  le_antisymm ((h u).mp le_rfl) ((h v).mpr le_rfl)

/-- A vector minimum-reduction along ONE axis from the pattern of +infinity, read on the extended reals at a reduced
    index `j`: the minimum, from the top, over that axis's coordinates of the source at `j` with the coordinate
    inserted. The hypotheses are typed as a printed body's proof arguments are. -/
theorem minRed_apply {s t : Shape} {a : Fin s.rank} (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j
      = (Finset.univ : Finset (Fin (s.size a))).fold min ⊤ (src ∘ h.lift j) := by
  rw [multiReduction_minimumf_eq_fold]
  refine (h.fold_filter_drop_single FloatOps.minimumf _ src j).trans ?_
  show Finset.fold min (Ideal.ofBits .f32 0x7F800000#32) _ _ = _
  rw [ofBits_inf]

/-- The host's one-operand reduction with a minimum body along ONE axis from the constant +infinity, read on the
    extended reals at a reduced index `j`: the same minimum. -/
theorem hostMinRed_apply {s t u : Shape} {a : Fin s.rank} (x : FVec Ideal s .f32) (h' : s.ReducesTo [a] t) (h : s.Reduces [a] t)
    (hu : 0 < u.numel) (j : t.Idx) :
    Host.reduce FloatOps.minimumf x (constant (F := Ideal) u .f32 0x7F800000#32) h' hu j
      = (Finset.univ : Finset (Fin (s.size a))).fold min ⊤ (x ∘ h.lift j) := by
  rw [Host.reduce_eq_fold_single FloatOps.minimumf x _ h' h hu]
  show Finset.fold min (Ideal.ofBits .f32 0x7F800000#32) _ _ = _
  rw [ofBits_inf]

/-- A column `[a, 1]` broadcast along the lanes to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.MinFold

end
-- ==== Proof.LibPlainMatmul.lean ====
/- Two contractions read at coordinates, on the extended reals, for any extents: a `tpu.matmul` with the plain dimension
   numbers (rows × contraction by contraction × columns) into the zero accumulator, at (p, c), is the sum over the
   contraction coordinate k of left(p, k) · right(k, c); and a lane sum of a matrix (a `vector.multi_reduction <add>`
   along axis 1 from the neutral accumulator), at row p, is the sum over k of the matrix at (p, k). Nothing here depends
   on a particular program: a printed record with the plain lists is `DotDims.plain` by `rfl`. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.PlainMatmul

/-- A matrix product with the plain dimension numbers into the zero accumulator, read at (p, c): the sum over the one
    contraction coordinate of the left operand's row p against the right operand's column c. -/
theorem plain_matmul_zero_apply {M K N : ℕ} {φ₁ φ₂ : FTy} (l : FVec Ideal ⟨2, ![M, K]⟩ φ₁) (r : FVec Ideal ⟨2, ![K, N]⟩ φ₂)
    (p : Fin M) (c : Fin N) :
    FloatOps.matmul (DotDims.plain M K N) none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => rfl)
  rw [el, er]

/-- A lane sum of a matrix from the neutral accumulator, read at row p: the sum over the lane coordinate of the matrix
    at (p, k). The hypotheses are typed as the library's reading of the reduction takes them; a printed body's proof
    arguments are accepted for them. -/
theorem rowSum_apply {A K : ℕ} (src : FVec Ideal ⟨2, ![A, K]⟩ .f32) (acc : BitVec 32)
    (h : (⟨2, ![A, K]⟩ : Shape).Reduces [1] ⟨1, ![A]⟩) (hφ : FKind.Formats .f32) (hacc : acc = FKind.add.neutral .f32 hφ)
    (p : Fin A) :
    multiReduction .add [1] ⟨1, ![A]⟩ src acc h hφ hacc (ix1 p) = ∑ k : Fin K, src (ix2 p k) :=
  (Ideal.multiReduction_add_single src acc h hφ hacc (ix1 p)).trans
    (Finset.sum_congr rfl fun k _ => congrArg src (funext fun a => Fin.ext (by
      match a with
      | ⟨0, _⟩ => rfl
      | ⟨1, _⟩ => rfl)))

end Cert.Lib.PlainMatmul

end
-- ==== Proof.BlockRow.lean ====
/-
  What the kernel's body stores, one entry at a time.

  The body loads a block of 2048 batch rows `v0`, all 512 centres `v1`, the widths `v2`, the two weight pieces `v3`
  (3 × 64) and `v5` (3 × 512) and the bias `v7`, and stores one [2048, 3] value. That value is cut here into its named
  intermediate arrays, each read at coordinates on the extended reals:
    • the rows' sums of squares, cast to a column and laid along the 512 lanes, and the centres' sums of squares, cast
      to a row and laid down the 2048 rows;
    • the cross products: the block against the transposed centres (a change of float format is the identity);
    • the squared distances, the negated widths `0 − β` (which is `−β`), the radial features;
    • the block against the transposed input weights, the radial features against the transposed feature weights, and
      the bias laid down the rows.
  Entry (p, o) of the stored value is `Cert.Rbf.rowOut` of row p of the block.
-/
import proofs.«128353_j5901285064816_1_alg».proof.Proof.Gen.KernelIdeal.Skeleton
import proofs.«128353_j5901285064816_1_alg».proof.Proof.RowSpec
import proofs.«128353_j5901285064816_1_alg».proof.Proof.LibMinFold
import proofs.«128353_j5901285064816_1_alg».proof.Proof.LibPlainMatmul
import Idealize.ShloMosaic.Lib.ValueLayout
import Idealize.ShloMosaic.Lib.Pipeline.Value
import Idealize.ShloMosaic.PureOps.Ideal.Laws

noncomputable section

open scoped BigOperators

namespace Cert.Rbf.Block

open Cert.KernelIdeal Cert.KernelIdeal.Gen Idealize.ShloMosaic Idealize.ShloMosaic.ValueIdx Cert.Rbf
open Cert.Lib.MinFold Cert.Lib.PlainMatmul

variable (v0 : FVec Ideal S2048x64 .f32) (v1 : FVec Ideal S512x64 .f32) (v2 : FVec Ideal S1x512 .f32)
  (v3 : FVec Ideal S3x64 .f32) (v5 : FVec Ideal S3x512 .f32) (v7 : FVec Ideal S3 .f32)

/-! ## The three printed contraction records are the plain one -/

theorem dotCross_eq : dot_S2048x64_S64x512_S2048x512_1_0_0_1_n_n = DotDims.plain 2048 64 512 := rfl
theorem dotInput_eq : dot_S2048x64_S64x3_S2048x3_1_0_0_1_n_n = DotDims.plain 2048 64 3 := rfl
theorem dotRadial_eq : dot_S2048x512_S512x3_S2048x3_1_0_0_1_n_n = DotDims.plain 2048 512 3 := rfl

/-! ## Squared norms -/

/-- The block's rows' sums of squares, as a column laid along the 512 lanes. -/
def rowNorms : FVec Ideal S2048x512 .f32 :=
  broadcastTo S2048x512
    (shapeCast S2048x1 (multiReduction .add [1] S2048 (mulf v0 v0) 0x00000000#32 reduces_S2048x64_S2048 (.inl rfl) rfl)
      shapeCasts_S2048_S2048x1) broadcasts_S2048x1_S2048x512

theorem rowNorms_apply (p : Fin 2048) (c : Fin 512) : rowNorms v0 (ix2 p c) = sqNorm (fun d => v0 (ix2 p d)) :=
  (broadcastTo_a1_ab_apply _ _ p c).trans ((shapeCast_a_a1_apply _ _ p 0).trans (rowSum_apply _ _ _ _ _ p))

/-- The centres' sums of squares, as a row laid down the 2048 rows. -/
def centreNorms : FVec Ideal S2048x512 .f32 :=
  broadcastTo S2048x512
    (shapeCast S1x512 (multiReduction .add [1] S512 (mulf v1 v1) 0x00000000#32 reduces_S512x64_S512 (.inl rfl) rfl)
      shapeCasts_S512_S1x512) broadcasts_S1x512_S2048x512

theorem centreNorms_apply (p : Fin 2048) (c : Fin 512) : centreNorms v1 (ix2 p c) = sqNorm (fun d => v1 (ix2 c d)) :=
  (broadcastTo_1b_ab_apply _ _ p c).trans ((shapeCast_a_1a_apply _ _ 0 c).trans (rowSum_apply _ _ _ _ _ c))

/-! ## Cross products, squared distances, radial features -/

/-- The block against the transposed centres. -/
def cross : FVec Ideal S2048x512 .f32 :=
  matmul dot_S2048x64_S64x512_S2048x512_1_0_0_1_n_n none (truncf .bf16 v0 bitsLt_bf16_f32)
    (transpose S64x512 [1, 0] (truncf .bf16 v1 bitsLt_bf16_f32) transposes_S512x64_p1_0_S64x512)
    (constant S2048x512 .f32 0x00000000#32)

theorem cross_apply (p : Fin 2048) (c : Fin 512) : cross v0 v1 (ix2 p c) = ∑ d : Fin 64, v0 (ix2 p d) * v1 (ix2 c d) := by
  unfold cross
  rw [dotCross_eq]
  refine (plain_matmul_zero_apply _ _ p c).trans (Finset.sum_congr rfl fun k _ => ?_)
  exact congrArg (v0 (ix2 p k) * ·) (transpose_ix2_apply _ _ k c)

/-- The squared distances of the block's rows from the centres. -/
def sqDists : FVec Ideal S2048x512 .f32 :=
  subf (addf (rowNorms v0) (centreNorms v1))
    (mulf (broadcast S2048x512 (Scalar.ofBits .f32 0x40000000#32)) (cross v0 v1))

theorem sqDists_apply (p : Fin 2048) (c : Fin 512) :
    sqDists v0 v1 (ix2 p c) = sqDist (fun d => v0 (ix2 p d)) (fun d => v1 (ix2 c d)) := by
  show (rowNorms v0 (ix2 p c) + centreNorms v1 (ix2 p c)) - Ideal.ofBits .f32 0x40000000#32 * cross v0 v1 (ix2 p c) = _
  rw [rowNorms_apply, centreNorms_apply, cross_apply]
  rfl

/-- The negated widths `0 − β`, laid down the rows. -/
def negWidths : FVec Ideal S2048x512 .f32 :=
  broadcastTo S2048x512 (subf (broadcast S1x512 (Scalar.ofBits .f32 0x00000000#32)) v2) broadcasts_S1x512_S2048x512

theorem negWidths_apply (p : Fin 2048) (c : Fin 512) : negWidths v2 (ix2 p c) = -(v2 (ix2 (0 : Fin 1) c)) := by
  refine (broadcastTo_1b_ab_apply _ _ p c).trans ?_
  show Ideal.ofBits .f32 0x00000000#32 - v2 (ix2 (0 : Fin 1) c) = _
  rw [Ideal.ofBits_zero_f32, zero_sub]

/-- The radial features of the block's rows. -/
def radials : FVec Ideal S2048x512 .f32 := exp (mulf (negWidths v2) (sqDists v0 v1))

theorem radials_apply (p : Fin 2048) (c : Fin 512) :
    radials v0 v1 v2 (ix2 p c)
      = radial (fun d => v0 (ix2 p d)) (fun c d => v1 (ix2 c d)) (fun c => -(v2 (ix2 (0 : Fin 1) c))) c := by
  show Ideal.exp (negWidths v2 (ix2 p c) * sqDists v0 v1 (ix2 p c)) = _
  rw [negWidths_apply, sqDists_apply]
  rfl

/-! ## The three terms of the stored value -/

/-- The block against the transposed input weights. -/
def inputTerm : FVec Ideal S2048x3 .f32 :=
  matmul dot_S2048x64_S64x3_S2048x3_1_0_0_1_n_n none v0
    (transpose S64x3 [1, 0] (shapeCast S3x64 v3 shapeCasts_S3x64_S3x64) transposes_S3x64_p1_0_S64x3)
    (constant S2048x3 .f32 0x00000000#32)

theorem inputTerm_apply (p : Fin 2048) (o : Fin 3) : inputTerm v0 v3 (ix2 p o) = ∑ d : Fin 64, v0 (ix2 p d) * v3 (ix2 o d) := by
  unfold inputTerm
  rw [dotInput_eq, shapeCast_self]
  refine (plain_matmul_zero_apply _ _ p o).trans (Finset.sum_congr rfl fun k _ => ?_)
  exact congrArg (v0 (ix2 p k) * ·) (transpose_ix2_apply _ _ k o)

/-- The radial features against the transposed feature weights. -/
def radialTerm : FVec Ideal S2048x3 .f32 :=
  matmul dot_S2048x512_S512x3_S2048x3_1_0_0_1_n_n none (radials v0 v1 v2)
    (transpose S512x3 [1, 0] (shapeCast S3x512 v5 shapeCasts_S3x512_S3x512) transposes_S3x512_p1_0_S512x3)
    (constant S2048x3 .f32 0x00000000#32)

theorem radialTerm_apply (p : Fin 2048) (o : Fin 3) :
    radialTerm v0 v1 v2 v5 (ix2 p o)
      = ∑ c : Fin 512, radial (fun d => v0 (ix2 p d)) (fun c d => v1 (ix2 c d)) (fun c => -(v2 (ix2 (0 : Fin 1) c))) c
          * v5 (ix2 o c) := by
  unfold radialTerm
  rw [dotRadial_eq, shapeCast_self]
  refine (plain_matmul_zero_apply _ _ p o).trans (Finset.sum_congr rfl fun k _ => ?_)
  rw [radials_apply]
  exact congrArg (_ * ·) (transpose_ix2_apply _ _ k o)

/-- The bias laid down the rows. -/
def biasTerm : FVec Ideal S2048x3 .f32 :=
  broadcastTo S2048x3 (shapeCast S1x3 v7 shapeCasts_S3_S1x3) broadcasts_S1x3_S2048x3

theorem biasTerm_apply (p : Fin 2048) (o : Fin 3) : biasTerm v7 (ix2 p o) = v7 (ix1 o) :=
  (broadcastTo_1b_ab_apply _ _ p o).trans (shapeCast_a_1a_apply _ _ 0 o)

/-! ## The stored value -/

/-- The body's stored value is the three terms added in the printed grouping. -/
theorem pay_eq : k0_pay1 (F := Ideal) v0 v1 v2 v3 v5 v7
    = addf (addf (inputTerm v0 v3) (radialTerm v0 v1 v2 v5)) (biasTerm v7) := rfl

/-- Entry (p, o) of the stored value: `rowOut` of row p of the block against the centres, the negated widths, row o of
    each weight piece and the bias at o. -/
theorem pay_apply (p : Fin 2048) (o : Fin 3) :
    k0_pay1 (F := Ideal) v0 v1 v2 v3 v5 v7 (ix2 p o)
      = rowOut (fun d => v0 (ix2 p d)) (fun c d => v1 (ix2 c d)) (fun c => -(v2 (ix2 (0 : Fin 1) c)))
          (fun d => v3 (ix2 o d)) (fun c => v5 (ix2 o c)) (v7 (ix1 o)) := by
  rw [pay_eq]
  show (inputTerm v0 v3 (ix2 p o) + radialTerm v0 v1 v2 v5 (ix2 p o)) + biasTerm v7 (ix2 p o) = _
  rw [inputTerm_apply, radialTerm_apply, biasTerm_apply]
  rfl

/-- The same with the loaded blocks read off whole arrays: if row p of the batch block is row n of the batch, the
    centres, widths and bias blocks are the whole arrays, and row o of the two weight pieces is the two parts of row o of
    the weights, entry (p, o) of the stored value is `entry` at (n, o). -/
theorem pay_of_blocks (X : (⟨2, ![131072, 64]⟩ : Shape).Idx → EReal) (C : (⟨2, ![512, 64]⟩ : Shape).Idx → EReal)
    (β : (⟨2, ![1, 512]⟩ : Shape).Idx → EReal) (W : (⟨2, ![3, 576]⟩ : Shape).Idx → EReal)
    (b : (⟨1, ![3]⟩ : Shape).Idx → EReal) (n : Fin 131072) (p : Fin 2048) (o : Fin 3)
    (h0 : ∀ d : Fin 64, v0 (ix2 p d) = X (ix2 n d)) (h1 : ∀ (c : Fin 512) (d : Fin 64), v1 (ix2 c d) = C (ix2 c d))
    (h2 : ∀ c : Fin 512, v2 (ix2 (0 : Fin 1) c) = β (ix2 (0 : Fin 1) c))
    (h3 : ∀ d : Fin 64, v3 (ix2 o d) = W (ix2 o (lo d))) (h4 : ∀ c : Fin 512, v5 (ix2 o c) = W (ix2 o (hi c)))
    (h5 : v7 (ix1 o) = b (ix1 o)) :
    k0_pay1 (F := Ideal) v0 v1 v2 v3 v5 v7 (ix2 p o) = entry X C β W b n o := by
  rw [pay_apply]
  unfold entry
  simp only [h0, h1, h2, h3, h4, h5]

end Cert.Rbf.Block

end
-- ==== Proof.KernelArray.lean ====
/-
  The kernel's result array is `Cert.Rbf.result` of the argument arrays.

  The grid has 64 points; point t stages rows 2048·t … 2048·t + 2047 of the batch and of the result, and the whole of the
  centres, the widths, the two weight pieces and the bias (their block index is 0 at every point). The two weight
  pieces are arrays the host writes before the region: columns 0 … 63 and 64 … 575 of the weights. So each input block,
  read at coordinates, is the argument array at the matching coordinates; what point t writes back is, by the payload
  read at an entry, block t of `result`; the 64 blocks of 2048 rows cover the 131072 rows (row r lies in block r / 2048);
  hence the array after the run is `result`.
-/
import proofs.«128353_j5901285064816_1_alg».proof.Proof.Gen.KernelIdeal.Value
import proofs.«128353_j5901285064816_1_alg».proof.Proof.BlockRow
import Idealize.ShloMosaic.Lib.Pipeline.Value
import Idealize.ShloMosaic.Lib.ValueLayout
import Idealize.ShloMosaic.Lib.StableHlo.Run

noncomputable section

open Idealize.ShloMosaic Idealize.ShloMosaic.TcCoe Idealize.SL.Sem
open Idealize.ShloMosaic.Pipeline (Dat)

namespace Cert.Rbf.Kernel

open Cert.KernelIdeal Cert.KernelIdeal.Gen Cert.KernelIdeal.Value Idealize.ShloMosaic.ValueIdx Cert.Rbf

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The result array as a function of the argument arrays core `c` is launched with. -/
def out (c : Dev nD) : S131072x3.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-! ## The block index of every window at every point -/

/-- The batch and the result move with the point along the rows; every other window stays at block 0. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

/-! ## The two weight pieces the host writes before the region -/

/-- The first piece is columns 0 … 63 of the weights. -/
theorem V_piece1 (c : Dev nD) : (V m c main_v0 : S3x64.Idx → EReal)
    = extractStridedSlice S3x64 ![0, 0] (m ((c : Thread nD τ).loc main_arg3) : S3x576.Idx → EReal) slices_S3x576_S3x64_0_0 := by
  dsimp only [V, hostOps0]; after_results

/-- The second piece is columns 64 … 575 of the weights. -/
theorem V_piece2 (c : Dev nD) : (V m c main_v1 : S3x512.Idx → EReal)
    = extractStridedSlice S3x512 ![0, 64] (m ((c : Thread nD τ).loc main_arg3) : S3x576.Idx → EReal) slices_S3x576_S3x512_0_64 := by
  dsimp only [V, hostOps0]; after_results

/-! ## Each input block at coordinates -/

/-- Row p of the batch block at point t is row 2048·t + p of the batch. -/
theorem batch_block (c : Dev nD) (t : Fin cfg0.N) (p : Fin 2048) (d : Fin 64) (n : Fin 131072) (hn : n.val = 2048 * t.val + p.val) :
    (iblk m c 0 t : FVec Ideal S2048x64 .f32) (ix2 p d) = (m ((c : Thread nD τ).loc main_arg0) : S131072x64.Idx → EReal) (ix2 n d) := by
  obtain ⟨e0, e1, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = n.val; rw [e0, hn]; omega
  | ⟨1, _⟩ => show win0_0.index t (1 : Fin 2) * 64 + 1 * d.val = d.val; rw [e1]; omega

/-- The centres block is the centres. -/
theorem centres_block (c : Dev nD) (t : Fin cfg0.N) (k : Fin 512) (d : Fin 64) :
    (iblk m c 1 t : FVec Ideal S512x64 .f32) (ix2 k d) = (m ((c : Thread nD τ).loc main_arg1) : S512x64.Idx → EReal) (ix2 k d) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 512 + 1 * k.val = k.val; rw [e0]; omega
  | ⟨1, _⟩ => show win0_1.index t (1 : Fin 2) * 64 + 1 * d.val = d.val; rw [e1]; omega

/-- The widths block is the widths. -/
theorem widths_block (c : Dev nD) (t : Fin cfg0.N) (k : Fin 512) :
    (iblk m c 2 t : FVec Ideal S1x512 .f32) (ix2 (0 : Fin 1) k) = (m ((c : Thread nD τ).loc main_arg2) : S1x512.Idx → EReal) (ix2 (0 : Fin 1) k) := by
  obtain ⟨-, -, -, -, e0, e1, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 2) * 1 + 1 * 0 = 0; rw [e0]
  | ⟨1, _⟩ => show win0_2.index t (1 : Fin 2) * 512 + 1 * k.val = k.val; rw [e1]; omega

/-- Row o of the first weight piece's block is the first 64 entries of row o of the weights. -/
theorem piece1_block (c : Dev nD) (t : Fin cfg0.N) (o : Fin 3) (d : Fin 64) :
    (iblk m c 3 t : FVec Ideal S3x64 .f32) (ix2 o d) = (m ((c : Thread nD τ).loc main_arg3) : S3x576.Idx → EReal) (ix2 o (lo d)) := by
  obtain ⟨-, -, -, -, -, -, e0, e1, -⟩ := idx_facts t
  unfold iblk
  rw [View.read_apply]
  show (V m c main_v0 : S3x64.Idx → EReal) _ = _
  rw [V_piece1]
  refine Eq.trans (congrArg _ (funext fun a => Fin.ext ?_)) (slice2_axis1_apply 0 _ _ o d (lo d) (by rw [lo_val]; omega))
  match a with
  | ⟨0, _⟩ => show win0_3.index t (0 : Fin 2) * 3 + 1 * o.val = o.val; rw [e0]; omega
  | ⟨1, _⟩ => show win0_3.index t (1 : Fin 2) * 64 + 1 * d.val = d.val; rw [e1]; omega

/-- Row o of the second weight piece's block is the last 512 entries of row o of the weights. -/
theorem piece2_block (c : Dev nD) (t : Fin cfg0.N) (o : Fin 3) (k : Fin 512) :
    (iblk m c 4 t : FVec Ideal S3x512 .f32) (ix2 o k) = (m ((c : Thread nD τ).loc main_arg3) : S3x576.Idx → EReal) (ix2 o (hi k)) := by
  obtain ⟨-, -, -, -, -, -, -, -, e0, e1, -⟩ := idx_facts t
  unfold iblk
  rw [View.read_apply]
  show (V m c main_v1 : S3x512.Idx → EReal) _ = _
  rw [V_piece2]
  refine Eq.trans (congrArg _ (funext fun a => Fin.ext ?_)) (slice2_axis1_apply 64 _ _ o k (hi k) (by rw [hi_val]))
  match a with
  | ⟨0, _⟩ => show win0_4.index t (0 : Fin 2) * 3 + 1 * o.val = o.val; rw [e0]; omega
  | ⟨1, _⟩ => show win0_4.index t (1 : Fin 2) * 512 + 1 * k.val = k.val; rw [e1]; omega

/-- The bias block is the bias. -/
theorem bias_block (c : Dev nD) (t : Fin cfg0.N) (o : Fin 3) :
    (iblk m c 5 t : FVec Ideal S3 .f32) (ix1 o) = (m ((c : Thread nD τ).loc main_arg4) : S3.Idx → EReal) (ix1 o) := by
  obtain ⟨-, -, -, -, -, -, -, -, -, -, e0, -⟩ := idx_facts t
  unfold iblk
  rw [View.read_apply]
  show V m c main_arg4 _ = _
  rw [V_main_arg4]
  refine congrArg _ (funext fun a => Fin.ext ?_)
  match a with
  | ⟨0, _⟩ => show win0_5.index t (0 : Fin 1) * 3 + 1 * o.val = o.val; rw [e0]; omega

/-! ## What a point writes back -/

/-- Entry (p, o) of what the body stores at point t is `entry` at row 2048·t + p and unit o. -/
theorem stored_entry (c : Dev nD) (t : Fin cfg0.N) (p : Fin 2048) (o : Fin 3) (n : Fin 131072) (hn : n.val = 2048 * t.val + p.val) :
    k0_pay1 (F := Ideal) (iblk m c 0 t) (iblk m c 1 t) (iblk m c 2 t) (iblk m c 3 t) (iblk m c 4 t) (iblk m c 5 t) (ix2 p o)
      = out m c (ix2 n o) :=
  Block.pay_of_blocks (iblk m c 0 t) (iblk m c 1 t) (iblk m c 2 t) (iblk m c 3 t) (iblk m c 4 t) (iblk m c 5 t) _ _ _ _ _ n p o
    (fun d => batch_block m c t p d n hn) (fun k d => centres_block m c t k d) (fun k => widths_block m c t k)
    (fun d => piece1_block m c t o d) (fun k => piece2_block m c t o k) (bias_block m c t o)

/-- WHAT POINT `t` WRITES BACK is block `t` of `out`. -/
theorem flushed_eq (c : Dev nD) (t : Fin cfg0.N) :
    (dats m 0 c).flushed 6 t = ((cfg0.win 6).blk t).view.read (Elt Ideal) (out m c) := by
  obtain ⟨-, -, -, -, -, -, -, -, -, -, -, e0, e1⟩ := idx_facts t
  rw [flushed6]
  unfold out0_6
  rw [View.canon_unit_zero hz2]
  simp only [View.ld_unit_zero (S := S2048x64) hz2, View.ld_unit_zero (S := S512x64) hz2, View.ld_unit_zero (S := S1x512) hz2,
    View.ld_unit_zero (S := S3x64) hz2, View.ld_unit_zero (S := S3x512) hz2, View.ld_unit_zero (S := S3) hz1]
  funext j
  show k0_pay1 (F := Ideal) (iblk m c 0 t) (iblk m c 1 t) (iblk m c 2 t) (iblk m c 3 t) (iblk m c 4 t) (iblk m c 5 t) j
    = out m c (((cfg0.win 6).blk t).view.emb j)
  have hj0 : (j 0).val < 2048 := (j 0).isLt
  have hj1 : (j 1).val < 3 := (j 1).isLt
  have hN : cfg0.N = 64 := N_0
  have ht : t.val < 64 := hN ▸ t.isLt
  have hjj : j = ix2 (⟨(j 0).val, hj0⟩ : Fin 2048) (⟨(j 1).val, hj1⟩ : Fin 3) :=
    funext fun a => by match a with | ⟨0, _⟩ => rfl | ⟨1, _⟩ => rfl
  have hemb : ((cfg0.win 6).blk t).view.emb j
      = ix2 (⟨2048 * t.val + (j 0).val, by omega⟩ : Fin 131072) (⟨(j 1).val, hj1⟩ : Fin 3) :=
    funext fun a => Fin.ext (by
      match a with
      | ⟨0, _⟩ => show win0_6.index t (0 : Fin 2) * 2048 + 1 * (j 0).val = 2048 * t.val + (j 0).val; rw [e0]; omega
      | ⟨1, _⟩ => show win0_6.index t (1 : Fin 2) * 3 + 1 * (j 1).val = (j 1).val; rw [e1]; omega)
  rw [hemb]
  refine Eq.trans (congrArg _ hjj) ?_
  exact stored_entry m c t _ _ _ rfl

/-! ## The cover, the array after the run, the run -/

/-- An index of the result array is in point `t`'s block iff each coordinate is in the block's range on its axis. -/
theorem mem_blk (t : Fin cfg0.N) (i : S131072x3.Idx) :
    i ∈ ((cfg0.win 6).blk t).view.set ↔ ∀ a : Fin 2, win0_6.index t a * S2048x3.size a ≤ (i a).val
      ∧ (i a).val < win0_6.index t a * S2048x3.size a + S2048x3.size a := by
  show i ∈ ((View.whole main_v2).slice (win0_6.rect t)).set ↔ _
  rw [View.set_slice_whole, Rect.mem_set_unit]
  exact Iff.rfl

/-- Every index of the result array lies in some point's block: row r in block r / 2048. -/
theorem cover (i : S131072x3.Idx) : ∃ t : Fin cfg0.N, (cfg0.win 6).flush t = true ∧ i ∈ ((cfg0.win 6).blk t).view.set := by
  have hi0 : (i 0).val < 131072 := (i 0).isLt
  have hi1 : (i 1).val < 3 := (i 1).isLt
  have hN : cfg0.N = 64 := N_0
  obtain ⟨t, ht⟩ : ∃ t : Fin cfg0.N, t.val = (i 0).val / 2048 := ⟨⟨(i 0).val / 2048, by rw [hN]; omega⟩, rfl⟩
  obtain ⟨-, -, -, -, -, -, -, -, -, -, -, e0, e1⟩ := idx_facts t
  refine ⟨t, flush0_6 t, ?_⟩
  rw [mem_blk]
  intro a
  match a with
  | ⟨0, _⟩ =>
    show win0_6.index t (0 : Fin 2) * 2048 ≤ (i 0).val ∧ (i 0).val < win0_6.index t (0 : Fin 2) * 2048 + 2048
    rw [e0, ht]; omega
  | ⟨1, _⟩ =>
    show win0_6.index t (1 : Fin 2) * 3 ≤ (i 1).val ∧ (i 1).val < win0_6.index t (1 : Fin 2) * 3 + 3
    rw [e1]; omega

/-- THE ARRAY after the run is `out`. -/
theorem final (c : Dev nD) : (dats m 0 c).arrAt 6 cfg0.N = out m c :=
  (dats m 0 c).arrAt_eq_of_cover 6 (out m c) (fun t _ => flushed_eq m c t) cover

/-- The frame run re-posted: the result array at `out`, the arguments unchanged. -/
theorem run : θ_run defs (onTc (τ := τ) (main (F := Ideal))) ⟨m, fun _ => 0, ρ⟩ fun r => ∀ c : Dev nD,
      r.2.mem ((c : Thread nD τ).loc main_v2) = out m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.Rbf.Kernel

end
-- ==== Proof.lean ====
/-
  A radial-basis layer: the kernel against its jnp reference, equal on the extended reals.

  Both programs compute, for a batch `x` [131072, 64], centres `c` [512, 64], widths `β` [1, 512], weights `W` [3, 576]
  and bias `b` [3], the array

      out[n, o] = Σ_{d<64} x[n,d] · W[o,d]  +  Σ_{k<512} r[n,k] · W[o, 64+k]  +  b[o],
      r[n,k]    = exp( −β[0,k] · ( (Σ_d x[n,d]² + Σ_d c[k,d]²) − 2 · Σ_d x[n,d] · c[k,d] ) ).

  The reference joins the batch row and its 512 radial features into one row of 576 entries and contracts it against
  the weights; the kernel, on blocks of 2048 rows, contracts the two parts separately against the two column pieces of
  the weights and adds. The two agree by regrouping one finite sum (`Cert.Rbf.sum_split`), and the kernel's `0 − β` is the
  reference's `−β`; neither step needs the inputs to be finite, so the precondition is not opened. A change of float
  format on the way into the kernel's first matrix product is the identity at the ideal values.

  The modules: `RowSpec` (the function, one entry at a time, and the regrouping law), `RefRow` (the reference's stages
  read at an index give that function), `BlockRow` (so does what the kernel's body stores, at an entry of a block),
  `KernelArray` (each input block is the argument array at the matching rows; the 64 blocks cover the result array; the
  run), over the general lemmas of `LibPlainMatmul` and `LibMinFold`. The three frames are the generated frame
  certificates of the two kernel programs and the reference's generated run with its result dropped; the kernel's
  idealization rewrote nothing, so `preserves` is trivial.
-/
import proofs.«128353_j5901285064816_1_alg».proof.Defs
import proofs.«128353_j5901285064816_1_alg».proof.Proof.Gen.Kernel
import proofs.«128353_j5901285064816_1_alg».proof.Proof.Gen.Kernel.Frame
import proofs.«128353_j5901285064816_1_alg».proof.Proof.Gen.KernelIdeal
import proofs.«128353_j5901285064816_1_alg».proof.Proof.Gen.KernelIdeal.Frame
import proofs.«128353_j5901285064816_1_alg».proof.Proof.Gen.KernelIdeal.Value
import proofs.«128353_j5901285064816_1_alg».proof.Proof.Gen.ReferenceIdeal
import proofs.«128353_j5901285064816_1_alg».proof.Proof.Gen.ReferenceIdeal.Run
import proofs.«128353_j5901285064816_1_alg».proof.Proof.Gen.ReferenceIdeal.Read
import proofs.«128353_j5901285064816_1_alg».proof.Proof.Gen.Pre_finite_inputs
import proofs.«128353_j5901285064816_1_alg».proof.Proof.RefRow
import proofs.«128353_j5901285064816_1_alg».proof.Proof.KernelArray

noncomputable section

namespace Cert.Proof

open Idealize.ShloMosaic Idealize.SL.Sem

/-- The word-level kernel runs and leaves its arguments unchanged: its generated frame certificate. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and leaves its arguments unchanged: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the result array at `Cert.Rbf.result` of the
    arguments: the kernel by its blocks (`Cert.Rbf.Kernel.run`), the reference by its stages (`Cert.Rbf.Ref.ref_result`). -/
theorem algebraic : Cert.algebraic_KernelIdeal_ReferenceIdeal := by
  intro m ρ m' ρ' _ hagree
  refine ⟨fun c => Cert.Rbf.Kernel.out m c, Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.Rbf.Ref.ref_result, (hagree c).1, (hagree c).2.1, (hagree c).2.2.1,
    (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
